-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S800000 : Shape := ⟨1, ![800000]⟩
abbrev S100000x1 : Shape := ⟨2, ![100000, 1]⟩
abbrev S25000x1 : Shape := ⟨2, ![25000, 1]⟩
abbrev S256x256 : Shape := ⟨2, ![256, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S25000x1 : S_.BroadcastsInDim S25000x1 (![] : Fin 0 → Fin S25000x1.rank)
  reducesTo_S25000x1_S_d0_1 : S25000x1.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S100000x256 .f32) (main_arg1 : IVec S800000 32) (main_arg2 : IVec S800000 32) (main_arg3 : FVec F S100000x1 .f32) (main_arg4 : FVec F S25000x1 .f32) (main_arg5 : FVec F S256x256 .f32) (main_arg6 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x1 .f32 := Host.absf main_arg3
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S25000x1 .f32 := Host.absf main_arg4
  let main_cst_2 : FVec F S_ .f32 := constant S_ .f32 0x7F800000#32
  let main_v10 : FVec F S25000x1 .f32 := broadcastInDim S25000x1 ![] bcast_S_S25000x1 main_cst_2
  let main_v11 : IVec S25000x1 1 := cmpf .olt main_v9 main_v10
  let main_c_3 : IVec S_ 1 := constantI S_ 1 1#1
  let main_v12 : IVec S_ 1 := (fun x v => Host.reduce IntOp.andi x v reducesTo_S25000x1_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_v13 main_v16
-- ==== Kernel.lean ====
abbrev S100000x256 : Shape := ⟨2, ![100000, 256]⟩
abbrev S800000 : Shape := ⟨1, ![800000]⟩
abbrev S100000x1 : Shape := ⟨2, ![100000, 1]⟩
abbrev S25000x1 : Shape := ⟨2, ![25000, 1]⟩
abbrev S256x256 : Shape := ⟨2, ![256, 256]⟩
abbrev S256 : Shape := ⟨1, ![256]⟩
abbrev S4000x256 : Shape := ⟨2, ![4000, 256]⟩
abbrev S_ : Shape := ⟨0, ![]⟩
abbrev S800000x1 : Shape := ⟨2, ![800000, 1]⟩
abbrev S800000x256 : Shape := ⟨2, ![800000, 256]⟩
abbrev S800000x257 : Shape := ⟨2, ![800000, 257]⟩
abbrev S25000x257 : Shape := ⟨2, ![25000, 257]⟩
abbrev S25000x256 : Shape := ⟨2, ![25000, 256]⟩
abbrev S1x256 : Shape := ⟨2, ![1, 256]⟩
abbrev S2000x256 : Shape := ⟨2, ![2000, 256]⟩
abbrev S2000x1 : Shape := ⟨2, ![2000, 1]⟩

abbrev nBuf : Space → Nat
  | .hbm => 48
  | .vmem => 12
  | .smem => 0
  | _ => 0

abbrev bufTy : (tb : Table) → Fin (tcTables nBuf tb) → BufTy
  | .hbm, ⟨0, _⟩ => ⟨S100000x256, .f32⟩
  | .hbm, ⟨1, _⟩ => ⟨S800000, .i32⟩
  | .hbm, ⟨2, _⟩ => ⟨S800000, .i32⟩
  | .hbm, ⟨3, _⟩ => ⟨S100000x1, .f32⟩
  | .hbm, ⟨4, _⟩ => ⟨S25000x1, .f32⟩
  | .hbm, ⟨5, _⟩ => ⟨S256x256, .f32⟩
  | .hbm, ⟨6, _⟩ => ⟨S256, .f32⟩
  | .hbm, ⟨7, _⟩ => ⟨S100000x256, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x256, .f32⟩
  | .hbm, ⟨17, _⟩ => ⟨S_, .f32⟩
  | .hbm, ⟨18, _⟩ => ⟨S800000x1, .f32⟩
  | .hbm, ⟨19, _⟩ => ⟨S800000x257, .f32⟩
  | .hbm, ⟨20, _⟩ => ⟨S_, .f32⟩
  | .hbm, ⟨21, _⟩ => ⟨S25000x257, .f32⟩
  | .hbm, ⟨22, _⟩ => ⟨S800000x1, .i32⟩
  | .hbm, ⟨23, _⟩ => ⟨S25000x257, .f32⟩
  | .hbm, ⟨24, _⟩ => ⟨S25000x256, .f32⟩
  | .hbm, ⟨25, _⟩ => ⟨S25000x1, .f32⟩
  | .hbm, ⟨26, _⟩ => ⟨S_, .f32⟩
  | .hbm, ⟨27, _⟩ => ⟨S25000x1, .f32⟩
  | .hbm, ⟨28, _⟩ => ⟨S25000x1, .f32⟩
  | .hbm, ⟨29, _⟩ => ⟨S25000x256, .f32⟩
  | .hbm, ⟨30, _⟩ => ⟨S25000x256, .f32⟩
  | .hbm, ⟨31, _⟩ => ⟨S25000x256, .f32⟩
  | .hbm, ⟨32, _⟩ => ⟨S25000x256, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x256, .f32⟩
  | .hbm, ⟨42, _⟩ => ⟨S_, .f32⟩
  | .hbm, ⟨43, _⟩ => ⟨S100000x256, .f32⟩
  | .hbm, ⟨44, _⟩ => ⟨S800000x1, .i32⟩
  | .hbm, ⟨45, _⟩ => ⟨S100000x256, .f32⟩
  | .hbm, ⟨46, _⟩ => ⟨S1x256, .f32⟩
  | .hbm, ⟨47, _⟩ => ⟨S100000x256, .f32⟩
  | .local _ .vmem, ⟨0, _⟩ => ⟨S4000x256, .f32⟩
  | .local _ .vmem, ⟨1, _⟩ => ⟨S4000x256, .f32⟩
  | .local _ .vmem, ⟨2, _⟩ => ⟨S256x256, .f32⟩
  | .local _ .vmem, ⟨3, _⟩ => ⟨S4000x256, .f32⟩
  | .local _ .vmem, ⟨4, _⟩ => ⟨S4000x256, .f32⟩
  | .local _ .vmem, ⟨5, _⟩ => ⟨S2000x256, .f32⟩
  | .local _ .vmem, ⟨6, _⟩ => ⟨S2000x256, .f32⟩
  | .local _ .vmem, ⟨7, _⟩ => ⟨S2000x1, .f32⟩
  | .local _ .vmem, ⟨8, _⟩ => ⟨S2000x1, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  concatenates_S800000x256_S800000x1_S800000x257_d1 : Shape.Concatenates [S800000x256, S800000x1] S800000x257 1
  bcast_S_S25000x257 : S_.BroadcastsInDim S25000x257 (![] : Fin 0 → Fin S25000x257.rank)
  slices_S25000x257_S25000x256_0_0 : S25000x257.Slices ![0, 0] S25000x256
  slices_S25000x257_S25000x1_0_256 : S25000x257.Slices ![0, 256] S25000x1
  bcast_S_S25000x1 : S_.BroadcastsInDim S25000x1 (![] : Fin 0 → Fin S25000x1.rank)
  bcast_S25000x1_S25000x256_0_1 : S25000x1.BroadcastsInDim S25000x256 (![0, 1] : Fin 2 → Fin S25000x256.rank)
  bcast_S_S100000x256 : S_.BroadcastsInDim S100000x256 (![] : Fin 0 → Fin S100000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S2000x1_S2000x256 : S2000x1.Broadcasts S2000x256
  broadcasts_S1x256_S2000x256 : S1x256.Broadcasts S2000x256
  dot_S4000x256_S256x256_S4000x256_1_0_0_1_n_n_wf : DotDims.WF S4000x256 S256x256 S4000x256 [1] [0] [0] [1] [] []
  gather_S100000x256_S800000x1_S800000x256_1_0_n_n_0_1_1256_wf : GatherDims.WF S100000x256 S800000x1 S800000x256 [1] [0] [] [0] [] 1 ![1, 256]
  scatter_S25000x257_S800000x1_S800000x257_1_0_0_1_wf : ScatterDims.WF S25000x257 S800000x1 S800000x257 [1] [0] [0] 1
  gather_S25000x256_S800000x1_S800000x256_1_0_n_n_0_1_1256_wf : GatherDims.WF S25000x256 S800000x1 S800000x256 [1] [0] [] [0] [] 1 ![1, 256]
  scatter_S100000x256_S800000x1_S800000x256_1_0_0_1_wf : ScatterDims.WF S100000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S100000x256.size a
  hwx0_2 : ∀ i : grid0.Coords, EltTy.bits .f32 = 32 ∨ (Rect.block (s := S100000x256) S4000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S100000x256.size a
  hwx1_3 : ∀ i : grid1.Coords, EltTy.bits .f32 = 32 ∨ (Rect.block (s := S100000x256) S2000x256.size (cc1_transform_3 i) (hinb1_3 i)).WholeWords (EltTy.packing .f32)

variable [Facts₀]

def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S25000x257_S800000x1_S800000x257_1_0_0_1 : ScatterDims S25000x257 S800000x1 S800000x257 where
  updateWindowDims := [1]
  insertedWindowDims := [0]
  scatterDimsToOperandDims := [0]
  indexVectorDim := 1
  wf := scatter_S25000x257_S800000x1_S800000x257_1_0_0_1_wf
def gather_S25000x256_S800000x1_S800000x256_1_0_n_n_0_1_1256 : GatherDims S25000x256 S800000x1 S800000x256 where
  offsetDims := [1]
  collapsedSliceDims := [0]
  operandBatchingDims := []
  startIndicesBatchingDims := []
  startIndexMap := [0]
  indexVectorDim := 1
  sliceSizes := ![1, 256]
  wf := gather_S25000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S800000 : Shape := ⟨1, ![800000]⟩
abbrev S100000x1 : Shape := ⟨2, ![100000, 1]⟩
abbrev S25000x1 : Shape := ⟨2, ![25000, 1]⟩
abbrev S256x256 : Shape := ⟨2, ![256, 256]⟩
abbrev S256 : Shape := ⟨1, ![256]⟩
abbrev S_ : Shape := ⟨0, ![]⟩
abbrev S800000x1 : Shape := ⟨2, ![800000, 1]⟩
abbrev S800000x256 : Shape := ⟨2, ![800000, 256]⟩
abbrev S25000x256 : Shape := ⟨2, ![25000, 256]⟩
abbrev S1x256 : Shape := ⟨2, ![1, 256]⟩

abbrev nBuf : Space → Nat
  | .hbm => 52
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S800000, .i32⟩
  | .hbm, ⟨2, _⟩ => ⟨S800000, .i32⟩
  | .hbm, ⟨3, _⟩ => ⟨S100000x1, .f32⟩
  | .hbm, ⟨4, _⟩ => ⟨S25000x1, .f32⟩
  | .hbm, ⟨5, _⟩ => ⟨S256x256, .f32⟩
  | .hbm, ⟨6, _⟩ => ⟨S256, .f32⟩
  | .hbm, ⟨7, _⟩ => ⟨S100000x256, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x256, .f32⟩
  | .hbm, ⟨17, _⟩ => ⟨S_, .f32⟩
  | .hbm, ⟨18, _⟩ => ⟨S25000x256, .f32⟩
  | .hbm, ⟨19, _⟩ => ⟨S800000x1, .i32⟩
  | .hbm, ⟨20, _⟩ => ⟨S25000x256, .f32⟩
  | .hbm, ⟨21, _⟩ => ⟨S_, .f32⟩
  | .hbm, ⟨22, _⟩ => ⟨S800000x1, .f32⟩
  | .hbm, ⟨23, _⟩ => ⟨S_, .f32⟩
  | .hbm, ⟨24, _⟩ => ⟨S25000x1, .f32⟩
  | .hbm, ⟨25, _⟩ => ⟨S800000x1, .i32⟩
  | .hbm, ⟨26, _⟩ => ⟨S25000x1, .f32⟩
  | .hbm, ⟨27, _⟩ => ⟨S_, .f32⟩
  | .hbm, ⟨28, _⟩ => ⟨S25000x1, .f32⟩
  | .hbm, ⟨29, _⟩ => ⟨S25000x1, .f32⟩
  | .hbm, ⟨30, _⟩ => ⟨S25000x256, .f32⟩
  | .hbm, ⟨31, _⟩ => ⟨S25000x256, .f32⟩
  | .hbm, ⟨32, _⟩ => ⟨S25000x256, .f32⟩
  | .hbm, ⟨33, _⟩ => ⟨S25000x256, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x256, .f32⟩
  | .hbm, ⟨43, _⟩ => ⟨S_, .f32⟩
  | .hbm, ⟨44, _⟩ => ⟨S100000x256, .f32⟩
  | .hbm, ⟨45, _⟩ => ⟨S800000x1, .i32⟩
  | .hbm, ⟨46, _⟩ => ⟨S100000x256, .f32⟩
  | .hbm, ⟨47, _⟩ => ⟨S100000x256, .f32⟩
  | .hbm, ⟨48, _⟩ => ⟨S100000x256, .f32⟩
  | .hbm, ⟨49, _⟩ => ⟨S1x256, .f32⟩
  | .hbm, ⟨50, _⟩ => ⟨S100000x256, .f32⟩
  | .hbm, ⟨51, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S25000x256 : S_.BroadcastsInDim S25000x256 (![] : Fin 0 → Fin S25000x256.rank)
  bcast_S_S800000x1 : S_.BroadcastsInDim S800000x1 (![] : Fin 0 → Fin S800000x1.rank)
  bcast_S_S25000x1 : S_.BroadcastsInDim S25000x1 (![] : Fin 0 → Fin S25000x1.rank)
  bcast_S25000x1_S25000x256_0_1 : S25000x1.BroadcastsInDim S25000x256 (![0, 1] : Fin 2 → Fin S25000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  dot_S100000x256_S256x256_S100000x256_1_0_0_1_n_n_wf : DotDims.WF S100000x256 S256x256 S100000x256 [1] [0] [0] [1] [] []
  gather_S100000x256_S800000x1_S800000x256_1_0_n_n_0_1_1256_wf : GatherDims.WF S100000x256 S800000x1 S800000x256 [1] [0] [] [0] [] 1 ![1, 256]
  scatter_S25000x256_S800000x1_S800000x256_1_0_0_1_wf : ScatterDims.WF S25000x256 S800000x1 S800000x256 [1] [0] [0] 1
  scatter_S25000x1_S800000x1_S800000x1_1_0_0_1_wf : ScatterDims.WF S25000x1 S800000x1 S800000x1 [1] [0] [0] 1
  gather_S25000x256_S800000x1_S800000x256_1_0_n_n_0_1_1256_wf : GatherDims.WF S25000x256 S800000x1 S800000x256 [1] [0] [] [0] [] 1 ![1, 256]
  scatter_S100000x256_S800000x1_S800000x256_1_0_0_1_wf : ScatterDims.WF S100000x256 S800000x1 S800000x256 [1] [0] [0] 1

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S25000x256_S800000x1_S800000x256_1_0_0_1 : ScatterDims S25000x256 S800000x1 S800000x256 where
  updateWindowDims := [1]
  insertedWindowDims := [0]
  scatterDimsToOperandDims := [0]
  indexVectorDim := 1
  wf := scatter_S25000x256_S800000x1_S800000x256_1_0_0_1_wf
def scatter_S25000x1_S800000x1_S800000x1_1_0_0_1 : ScatterDims S25000x1 S800000x1 S800000x1 where
  updateWindowDims := [1]
  insertedWindowDims := [0]
  scatterDimsToOperandDims := [0]
  indexVectorDim := 1
  wf := scatter_S25000x1_S800000x1_S800000x1_1_0_0_1_wf
def gather_S25000x256_S800000x1_S800000x256_1_0_n_n_0_1_1256 : GatherDims S25000x256 S800000x1 S800000x256 where
  offsetDims := [1]
  collapsedSliceDims := [0]
  operandBatchingDims := []
  startIndicesBatchingDims := []
  startIndexMap := [0]
  indexVectorDim := 1
  sliceSizes := ![1, 256]
  wf := gather_S25000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf

class Facts : Prop extends Facts₀ where

variable [Facts]
-- ==== Proof.KernelRun.lean ====
/- The whole run of the two-call program with every buffer named at the end. -/
import proofs.«146544_j18296560681438_2_alg».proof.Proof.Gen.KernelIdeal.Frame

noncomputable section

open Idealize.ShloMosaic Idealize.ShloMosaic.TcCoe Idealize.SL.Sem
open scoped BigOperators

namespace Cert.KernelIdeal.Whole

open Cert.KernelIdeal Cert.KernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with EVERY unscoped buffer of the core at the
    contents the last segment boundary names: the projection's write-backs folded, then the host operations between
    the two calls, then the scaling call's write-backs folded. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Whole

end
-- ==== Proof.BetweenCalls.lean ====
/- The host operations between the two calls, named as functions of what they read. -/
import proofs.«146544_j18296560681438_2_alg».proof.Proof.Gen.KernelIdeal.Launch
import Idealize.ShloMosaic.Lib.StableHlo.Run

noncomputable section

open Idealize.ShloMosaic Idealize.ShloMosaic.TcCoe Idealize.SL.Sem
open scoped BigOperators

namespace Cert.KernelIdeal.Whole

open Cert.KernelIdeal Cert.KernelIdeal.Facts₀
open Idealize.ShloMosaic.StableHlo

variable {F : FTy → Type} [FloatOps F]

/-! ## What the host computes between the two calls, as functions of the projected features `X`, the incidence lists
    `v` (nodes) and `e` (edges) and the edge degrees `dE` -/

/-- A node index as the gather reads it: a negative one counts from the end. -/
def wrapNodes (v : (⟨S800000, .i32⟩ : BufTy).Contents (Elt F)) : (⟨S800000, .i32⟩ : BufTy).Contents (Elt F) :=
  select (cmpi .slt v (broadcastInDim S800000 ![] bcast_S_S800000 (constantI S_ 32 0#32)))
    (addi v (broadcastInDim S800000 ![] bcast_S_S800000 (constantI S_ 32 100000#32))) v

/-- An edge index as the gather reads it: a negative one counts from the end. -/
def wrapEdges (e : (⟨S800000, .i32⟩ : BufTy).Contents (Elt F)) : (⟨S800000, .i32⟩ : BufTy).Contents (Elt F) :=
  select (cmpi .slt e (broadcastInDim S800000 ![] bcast_S_S800000 (constantI S_ 32 0#32)))
    (addi e (broadcastInDim S800000 ![] bcast_S_S800000 (constantI S_ 32 25000#32))) e

/-- One row of projected features per incidence: the row of the incidence's node. -/
def incidenceRows (X : (⟨S100000x256, .f32⟩ : BufTy).Contents (Elt F)) (v : (⟨S800000, .i32⟩ : BufTy).Contents (Elt F)) :
    (⟨S800000x256, .f32⟩ : BufTy).Contents (Elt F) :=
  Host.gather gather_S100000x256_S800000x1_S800000x256_1_0_n_n_0_1_1256 X
    (broadcastInDim S800000x1 ![0] bcast_S800000_S800000x1_0 (wrapNodes v))

/-- The column of ones that counts the incidences of an edge. -/
def onesColumn : (⟨S800000x1, .f32⟩ : BufTy).Contents (Elt F) :=
  broadcastInDim S800000x1 ![] bcast_S_S800000x1 (constant S_ .f32 0x3F800000#32)

/-- Per edge, in ONE accumulation over the incidences: the sum of its incidences' rows (columns 0 … 255) and their number
    (column 256). -/
def edgeSumsAndCounts (X : (⟨S100000x256, .f32⟩ : BufTy).Contents (Elt F)) (v e : (⟨S800000, .i32⟩ : BufTy).Contents (Elt F)) :
    (⟨S25000x257, .f32⟩ : BufTy).Contents (Elt F) :=
  Host.scatterAdd scatter_S25000x257_S800000x1_S800000x257_1_0_0_1
    (broadcastInDim S25000x257 ![] bcast_S_S25000x257 (constant S_ .f32 0x00000000#32))
    (broadcastInDim S800000x1 ![0] bcast_S800000_S800000x1_0 e)
    (concatenate S800000x257 1 [⟨S800000x256, incidenceRows X v⟩, ⟨S800000x1, onesColumn⟩] concatenates_S800000x256_S800000x1_S800000x257_d1)

/-- The edge features: the mean of an edge's incidence rows (the count floored at one), scaled by the edge's degree. -/
def edgeFeatures (X : (⟨S100000x256, .f32⟩ : BufTy).Contents (Elt F)) (v e : (⟨S800000, .i32⟩ : BufTy).Contents (Elt F))
    (dE : (⟨S25000x1, .f32⟩ : BufTy).Contents (Elt F)) : (⟨S25000x256, .f32⟩ : BufTy).Contents (Elt F) :=
  mulf (Host.divf (extractStridedSlice S25000x256 ![0, 0] (edgeSumsAndCounts X v e) slices_S25000x257_S25000x256_0_0)
      (broadcastInDim S25000x256 ![0, 1] bcast_S25000x1_S25000x256_0_1
        (maximumf (extractStridedSlice S25000x1 ![0, 256] (edgeSumsAndCounts X v e) slices_S25000x257_S25000x1_0_256)
          (broadcastInDim S25000x1 ![] bcast_S_S25000x1 (constant S_ .f32 0x3F800000#32)))))
    (broadcastInDim S25000x256 ![0, 1] bcast_S25000x1_S25000x256_0_1 dE)

/-- Per node: the sum of the features of its incidences' edges. -/
def nodeSums (X : (⟨S100000x256, .f32⟩ : BufTy).Contents (Elt F)) (v e : (⟨S800000, .i32⟩ : BufTy).Contents (Elt F))
    (dE : (⟨S25000x1, .f32⟩ : BufTy).Contents (Elt F)) : (⟨S100000x256, .f32⟩ : BufTy).Contents (Elt F) :=
  Host.scatterAdd scatter_S100000x256_S800000x1_S800000x256_1_0_0_1
    (broadcastInDim S100000x256 ![] bcast_S_S100000x256 (constant S_ .f32 0x00000000#32))
    (broadcastInDim S800000x1 ![0] bcast_S800000_S800000x1_0 v)
    (Host.gather gather_S25000x256_S800000x1_S800000x256_1_0_n_n_0_1_1256 (edgeFeatures X v e dE)
      (broadcastInDim S800000x1 ![0] bcast_S800000_S800000x1_0 (wrapEdges e)))

variable (W : Valuation τ sig (Elt F))

set_option maxHeartbeats 2000000 in
/-- The second call's first operand, as the host operations between the calls leave it. -/
theorem between_nodeSums :
    StableHlo.after (Gen.hostOps1 (F := F)) W (Proc.devRef .tc main_v30)
      = nodeSums (W (Proc.devRef .tc main_v0)) (W (Proc.devRef .tc main_arg1)) (W (Proc.devRef .tc main_arg2)) (W (Proc.devRef .tc main_arg4)) := by
  after_results_simp <;> rfl

set_option maxHeartbeats 2000000 in
/-- The bias as the second call reads it: laid out as one row. -/
theorem between_bias :
    StableHlo.after (Gen.hostOps1 (F := F)) W (Proc.devRef .tc main_v31)
      = shapeCast S1x256 (W (Proc.devRef .tc main_arg6)) shapeCasts_S256_S1x256 := by
  after_results_simp <;> rfl

set_option maxHeartbeats 2000000 in
/-- The node degrees pass the host operations untouched. -/
theorem between_degrees :
    StableHlo.after (Gen.hostOps1 (F := F)) W (Proc.devRef .tc main_arg3) = W (Proc.devRef .tc main_arg3) := by
  after_results_simp <;> rfl

end Cert.KernelIdeal.Whole

end
-- ==== Proof.NodeScaleArray.lean ====
/- The second call of the program (the node scaling) scales each row of a [100000,256] matrix by that row's entry of a
   [100000,1] column and adds a [1,256] row vector, 2000 rows at a time over 50 grid points. This module reads the
   region's output array after the last point as ONE function of the three input arrays, index by index: the stored
   value at an index of a block (`pay_apply`), what each point writes back as a block of the whole-array function
   (`flushed_eq`), the blocks' cover of the array (`covered`), and the array after the run (`nodeScale_array`). -/
import proofs.«146544_j18296560681438_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.NodeScale

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-- Each row of the first array scaled by that row's entry of the column array, plus the row vector: the
    element at row r, column k is a0[r,k] * a1[r,0] + a2[0,k]. -/
def rowScaleBias (a0 : S100000x256.Idx → Elt F .f32) (a1 : S100000x1.Idx → Elt F .f32) (a2 : S1x256.Idx → Elt F .f32) :
    S100000x256.Idx → Elt F .f32 :=
  fun i => FloatOps.addf (FloatOps.mulf (a0 i) (a1 (ValueIdx.ix2 (⟨(i 0).val, (i 0).isLt⟩ : Fin 100000) (0 : Fin 1))))
    (a2 (ValueIdx.ix2 (0 : Fin 1) (⟨(i 1).val, (i 1).isLt⟩ : Fin 256)))

/-- The body's stored value at row p, column q of a block: the block's element times the column block's entry of
    row p, plus the row vector's entry of column q (the two broadcasts read their operand at the unit axis's 0). -/
theorem pay_apply (x0 : Vec F S2000x256 .f32) (x1 : Vec F S2000x1 .f32) (x2 : Vec F S1x256 .f32) (p : Fin 2000) (q : Fin 256) :
    k1_pay1 x0 x1 x2 (ix2 p q)
      = FloatOps.addf (FloatOps.mulf (x0 (ix2 p q)) (x1 (ix2 p (0 : Fin 1)))) (x2 (ix2 (0 : Fin 1) q)) := by
  unfold k1_pay1
  show FloatOps.addf (FloatOps.mulf (shapeCast S2000x256 x0 _ (ix2 p q)) (broadcastTo S2000x256 x1 _ (ix2 p q)))
      (broadcastTo S2000x256 (shapeCast S1x256 x2 _) _ (ix2 p q)) = _
  rw [shapeCast_self, shapeCast_self]
  rw [broadcastTo_apply x1 _ (ix2 p q) (ix2 p (0 : Fin 1)) (fun a => by match a with | ⟨0, _⟩ => rfl | ⟨1, _⟩ => rfl)]
  rw [broadcastTo_apply x2 _ (ix2 p q) (ix2 (0 : Fin 1) q) (fun a => by match a with | ⟨0, _⟩ => rfl | ⟨1, _⟩ => rfl)]

/-- The body's stored value at row p, column q of a block is the whole-array function at the array index `i`, once
    the three blocks' entries read there are the three arrays' entries that `i` reads. -/
theorem pay_eq_rowScaleBias (x0 : Vec F S2000x256 .f32) (x1 : Vec F S2000x1 .f32) (x2 : Vec F S1x256 .f32)
    (a0 : S100000x256.Idx → Elt F .f32) (a1 : S100000x1.Idx → Elt F .f32) (a2 : S1x256.Idx → Elt F .f32)
    (p : Fin 2000) (q : Fin 256) (i : S100000x256.Idx)
    (h0 : x0 (ix2 p q) = a0 i)
    (h1 : x1 (ix2 p (0 : Fin 1)) = a1 (ix2 (⟨(i 0).val, (i 0).isLt⟩ : Fin 100000) (0 : Fin 1)))
    (h2 : x2 (ix2 (0 : Fin 1) q) = a2 (ix2 (0 : Fin 1) (⟨(i 1).val, (i 1).isLt⟩ : Fin 256))) :
    k1_pay1 x0 x1 x2 (ix2 p q) = rowScaleBias a0 a1 a2 i := by
  rw [pay_apply]
  unfold rowScaleBias
  rw [h0, h1, h2]

theorem zeroOffsets : (![0, 0] : Fin 2 → Nat) = fun _ => 0 := funext fun a => by fin_cases a <;> rfl

/-- The windows' index maps, decided over the 50 grid points: the matrix input, the column input and the output are
    all at block row `t`, block column 0; the row vector is always its one block. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt F) ((c : Thread nD τ).loc b))

/-- The four windows' arrays: the matrix, the column, the row vector, the output. -/
theorem arrRef_0 : Pipeline.arrRef spec1 0 = main_v30 := rfl
theorem arrRef_1 : Pipeline.arrRef spec1 1 = main_arg3 := rfl
theorem arrRef_2 : Pipeline.arrRef spec1 2 = main_v31 := rfl
theorem arrRef_3 : Pipeline.arrRef spec1 3 = main_v32 := rfl

set_option maxHeartbeats 400000 in
/-- What grid point `t` writes back is block `t` of the whole-array function of the three input arrays as the
    region finds them: each input block's element is the array's element at block index × block size + the
    coordinate inside the block, and the three index maps put the blocks where the output block's rows and columns are. -/
theorem flushed_eq (c : Dev nD) (t : Fin cfg1.N) :
    (dat1 (F := F) V c).flushed 3 t
      = ((cfg1.win 3).blk t).view.read (Elt F) (rowScaleBias (V c main_v30) (V c main_arg3) (V c main_v31)) := by
  show (cfg1.win 3).cut (grid1.coords t) ((dat1 V c).after 3 t) = _
  rw [after1_3]
  unfold out1_3
  rw [View.canon_unit_zero zeroOffsets]
  simp only [View.ld_unit_zero (S := S2000x256) zeroOffsets, View.ld_unit_zero (S := S2000x1) zeroOffsets,
    View.ld_unit_zero (S := S1x256) zeroOffsets]
  obtain ⟨e00, e01, e10, e11, e20, e21, e30, e31⟩ := index_facts t
  funext j
  obtain ⟨p, q, rfl⟩ : ∃ (p : Fin 2000) (q : Fin 256), j = ix2 p q := ⟨j 0, j 1, eq_ix2 j⟩
  show k1_pay1 (iblk1 V c 0 t) (iblk1 V c 1 t) (iblk1 V c 2 t) (ix2 p q)
    = rowScaleBias (V c main_v30) (V c main_arg3) (V c main_v31) (((cfg1.win 3).blk t).view.emb (ix2 p q))
  refine pay_eq_rowScaleBias _ _ _ _ _ _ p q _ ?_ ?_ ?_
  · show V c main_v30 (((cfg1.win 0).blk t).view.emb (ix2 p q)) = V c main_v30 (((cfg1.win 3).blk t).view.emb (ix2 p q))
    refine congrArg _ (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 256 + 1 * q.val = win1_3.index t (1 : Fin 2) * 256 + 1 * q.val; omega
  · show V c main_arg3 (((cfg1.win 1).blk t).view.emb (ix2 p (0 : Fin 1))) = V c main_arg3 _
    refine congrArg _ (funext fun a => Fin.ext ?_)
    match a with
    | ⟨0, _⟩ => show win1_1.index t (0 : Fin 2) * 2000 + 1 * p.val = win1_3.index t (0 : Fin 2) * 2000 + 1 * p.val; omega
    | ⟨1, _⟩ => show win1_1.index t (1 : Fin 2) * 1 + 1 * 0 = 0; omega
  · show V c main_v31 (((cfg1.win 2).blk t).view.emb (ix2 (0 : Fin 1) q)) = V c main_v31 _
    refine congrArg _ (funext fun a => Fin.ext ?_)
    match a with
    | ⟨0, _⟩ => show win1_2.index t (0 : Fin 2) * 1 + 1 * 0 = 0; omega
    | ⟨1, _⟩ => show win1_2.index t (1 : Fin 2) * 256 + 1 * q.val = win1_3.index t (1 : Fin 2) * 256 + 1 * q.val; omega

/-- An index of the output array is in point `t`'s block iff each coordinate is in the block's range on its axis. -/
theorem mem_blk (t : Fin cfg1.N) (i : S100000x256.Idx) :
    i ∈ ((cfg1.win 3).blk t).view.set
      ↔ ∀ a : Fin 2, win1_3.index t a * S2000x256.size a ≤ (i a).val
          ∧ (i a).val < win1_3.index t a * S2000x256.size a + S2000x256.size a := by
  show i ∈ ((View.whole main_v32).slice (win1_3.rect t)).set ↔ _
  rw [View.set_slice_whole, Rect.mem_set_unit]
  exact Iff.rfl

/-- Every index of the output array is in some point's block: row r is in block row r / 2000, and every block
    spans all 256 columns. -/
theorem covered (i : S100000x256.Idx) :
    ∃ t : Fin cfg1.N, (cfg1.win 3).flush t = true ∧ i ∈ ((cfg1.win 3).blk t).view.set := by
  have hi0 : (i 0).val < 100000 := (i 0).isLt
  have hi1 : (i 1).val < 256 := (i 1).isLt
  have hN : cfg1.N = 50 := N_1
  let t : Fin cfg1.N := ⟨(i 0).val / 2000, by rw [hN]; omega⟩
  obtain ⟨-, -, -, -, -, -, e30, e31⟩ := index_facts t
  have ht : t.val = (i 0).val / 2000 := rfl
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 256 ≤ (i 1).val ∧ (i 1).val < win1_3.index t (1 : Fin 2) * 256 + 256; omega

/-- After all 50 points the output array is the whole-array function of the three input arrays as the region
    found them: each point writes its block of it, and the blocks cover the array. -/
theorem nodeScale_array (c : Dev nD) :
    (dat1 (F := F) V c).arrAt 3 cfg1.N = rowScaleBias (V c main_v30) (V c main_arg3) (V c main_v31) :=
  (dat1 V c).arrAt_eq_of_cover 3 (rowScaleBias (V c main_v30) (V c main_arg3) (V c main_v31))
    (fun t _ => flushed_eq V c t) covered

end Cert.KernelIdeal.NodeScale

end
-- ==== Proof.KernelValue.lean ====
/- The value the two-call program returns, as one function of the launch memory's arrays and of the first call's result array. -/
import proofs.«146544_j18296560681438_2_alg».proof.Proof.KernelRun
import proofs.«146544_j18296560681438_2_alg».proof.Proof.BetweenCalls
import proofs.«146544_j18296560681438_2_alg».proof.Proof.NodeScaleArray

noncomputable section

open Idealize.ShloMosaic Idealize.ShloMosaic.TcCoe Idealize.SL.Sem
open scoped BigOperators

namespace Cert.KernelIdeal.Whole

open Cert.KernelIdeal Cert.KernelIdeal.Gen

variable {F : FTy → Type} [FloatOps F]
variable (m : (ℓ : Loc nD τ sig) → Buf (Elt F) ℓ) (ρ : Dev nD → PrngReg)

/-! ## The buffers between the calls, read back to the launch memory -/

theorem kept_arg1 (c : Dev nD) : W1 m ρ c (Proc.devRef .tc main_arg1) = m ((c : Thread nD τ).loc main_arg1) := W1_of_ne m ρ c main_arg1 (by decide)
theorem kept_arg2 (c : Dev nD) : W1 m ρ c (Proc.devRef .tc main_arg2) = m ((c : Thread nD τ).loc main_arg2) := W1_of_ne m ρ c main_arg2 (by decide)
theorem kept_arg3 (c : Dev nD) : W1 m ρ c (Proc.devRef .tc main_arg3) = m ((c : Thread nD τ).loc main_arg3) := W1_of_ne m ρ c main_arg3 (by decide)
theorem kept_arg4 (c : Dev nD) : W1 m ρ c (Proc.devRef .tc main_arg4) = m ((c : Thread nD τ).loc main_arg4) := W1_of_ne m ρ c main_arg4 (by decide)
theorem kept_arg6 (c : Dev nD) : W1 m ρ c (Proc.devRef .tc main_arg6) = m ((c : Thread nD τ).loc main_arg6) := W1_of_ne m ρ c main_arg6 (by decide)

/-- The value the program returns, in the launch memory's arrays: the node sums of the projected features, each row scaled
    by the node's degree, plus the bias laid out as a row. `X` is whatever the first call left in its result array. -/
def resultOf (X : S100000x256.Idx → Elt F .f32) (c : Dev nD) : S100000x256.Idx → Elt F .f32 :=
  NodeScale.rowScaleBias
    (nodeSums X (m ((c : Thread nD τ).loc main_arg1)) (m ((c : Thread nD τ).loc main_arg2)) (m ((c : Thread nD τ).loc main_arg4)))
    (m ((c : Thread nD τ).loc main_arg3))
    (shapeCast S1x256 (m ((c : Thread nD τ).loc main_arg6)) Facts₀.shapeCasts_S256_S1x256)

/-- The result buffer at the last segment boundary is `resultOf` of the first call's result array. -/
theorem result_at_exit (c : Dev nD) :
    W3 m ρ c (Proc.devRef .tc main_v32) = resultOf m (W1 m ρ c (Proc.devRef .tc main_v0)) c := by
  refine (W3_arr m ρ c 3).trans ?_
  rw [NodeScale.nodeScale_array (V2 m ρ) c]
  show NodeScale.rowScaleBias (StableHlo.after hostOps1 (W1 m ρ c) (Proc.devRef .tc main_v30))
      (StableHlo.after hostOps1 (W1 m ρ c) (Proc.devRef .tc main_arg3))
      (StableHlo.after hostOps1 (W1 m ρ c) (Proc.devRef .tc main_v31)) = _
  rw [between_nodeSums, between_degrees, between_bias, kept_arg1, kept_arg2, kept_arg3, kept_arg4, kept_arg6]
  rfl

/-- The run, read: the result at `resultOf` of the first call's array, every argument as launched. -/
theorem run_result : θ_run defs (onTc (τ := τ) (main (F := F))) ⟨m, fun _ => 0, ρ⟩ (fun r => ∀ c : Dev nD,
      r.2.mem ((c.tc : Thread nD τ).loc main_v32) = resultOf m (W1 m ρ c (Proc.devRef .tc main_v0)) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
      ⟨(h c _ (mem_uc main_v32 (by decide))).trans (result_at_exit m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)
    (run_all m ρ)

end Cert.KernelIdeal.Whole

end
-- ==== Proof.ProjectionBlock.lean ====
/- The projection's block product read at one entry. -/
import proofs.«146544_j18296560681438_2_alg».proof.Proof.Gen.KernelIdeal.Skeleton
import Idealize.ShloMosaic.Lib.ValueIdx
import Idealize.ShloMosaic.PureOps.Ideal.Laws

noncomputable section

open Idealize.ShloMosaic Idealize.ShloMosaic.TcCoe Idealize.SL.Sem
open Idealize.ShloMosaic.ValueIdx
open scoped BigOperators

namespace Cert.KernelIdeal.Projection

open Cert.KernelIdeal Cert.KernelIdeal.Gen

/-! The operand indices of the block product at output entry `i` and contraction index `k`: the left operand is read
    at (row of `i`, `k`), the right one at (`k`, column of `i`). -/

theorem lhs_row (i : S4000x256.Idx) (k : dot_S4000x256_S256x256_S4000x256_1_0_0_1_n_n.contr.Idx) : (dot_S4000x256_S256x256_S4000x256_1_0_0_1_n_n.lhsIdx i k 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem lhs_col (i : S4000x256.Idx) (k : dot_S4000x256_S256x256_S4000x256_1_0_0_1_n_n.contr.Idx) : (dot_S4000x256_S256x256_S4000x256_1_0_0_1_n_n.lhsIdx i k 1).val = (k ⟨0, by decide⟩).val :=
  dot_S4000x256_S256x256_S4000x256_1_0_0_1_n_n.lhsIdx_val_of_single rfl i k
theorem rhs_row (i : S4000x256.Idx) (k : dot_S4000x256_S256x256_S4000x256_1_0_0_1_n_n.contr.Idx) : (dot_S4000x256_S256x256_S4000x256_1_0_0_1_n_n.rhsIdx i k 0).val = (k ⟨0, by decide⟩).val :=
  dot_S4000x256_S256x256_S4000x256_1_0_0_1_n_n.rhsIdx_val_of_single rfl i k
theorem rhs_col (i : S4000x256.Idx) (k : dot_S4000x256_S256x256_S4000x256_1_0_0_1_n_n.contr.Idx) : (dot_S4000x256_S256x256_S4000x256_1_0_0_1_n_n.rhsIdx i k 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- One entry of the block product: row `p` of the loaded rows against column `q` of the weights, summed over
    the 256 shared coordinates. The change of float format before the product is the identity on extended reals and the
    accumulator is the zero splat, so nothing but the sum is left. -/
theorem block_product (x : Vec Ideal S4000x256 .f32) (w : Vec Ideal S256x256 .f32) (p : Fin 4000) (q : Fin 256) :
    k0_pay1 (F := Ideal) x w (ix2 p q) = ∑ k : Fin 256, x (ix2 p k) * w (ix2 k q) := by
  unfold k0_pay1
  show FloatOps.matmul dot_S4000x256_S256x256_S4000x256_1_0_0_1_n_n none _ _ (constant S4000x256 .f32 0x00000000#32) (ix2 p q) = _
  rw [Ideal.matmul_constant_zero_apply, ← Equiv.sum_comp (ValueIdx.contrEquiv1 dot_S4000x256_S256x256_S4000x256_1_0_0_1_n_n 256 rfl rfl).symm]
  refine Finset.sum_congr rfl fun k _ => ?_
  have hk := ValueIdx.contrEquiv1_symm_val dot_S4000x256_S256x256_S4000x256_1_0_0_1_n_n 256 rfl rfl k
  have el : dot_S4000x256_S256x256_S4000x256_1_0_0_1_n_n.lhsIdx (ix2 p q) ((ValueIdx.contrEquiv1 dot_S4000x256_S256x256_S4000x256_1_0_0_1_n_n 256 rfl rfl).symm k) = ix2 p k := funext fun a => Fin.ext (by
    match a with
    | ⟨0, _⟩ => exact lhs_row _ _
    | ⟨1, _⟩ => exact (lhs_col _ _).trans hk)
  have er : dot_S4000x256_S256x256_S4000x256_1_0_0_1_n_n.rhsIdx (ix2 p q) ((ValueIdx.contrEquiv1 dot_S4000x256_S256x256_S4000x256_1_0_0_1_n_n 256 rfl rfl).symm k) = ix2 k q := funext fun a => Fin.ext (by
    match a with
    | ⟨0, _⟩ => exact (rhs_row _ _).trans hk
    | ⟨1, _⟩ => exact rhs_col _ _)
  rw [el, er]
  rfl

end Cert.KernelIdeal.Projection

end
-- ==== Proof.ProjectionArray.lean ====
/- The first call's result array as one function of the arrays it reads: blocks of rows of a matrix product. -/
import proofs.«146544_j18296560681438_2_alg».proof.Proof.Gen.KernelIdeal.Frame
import proofs.«146544_j18296560681438_2_alg».proof.Proof.ProjectionBlock
import Idealize.ShloMosaic.Lib.Pipeline.Value
import Idealize.ShloMosaic.Lib.ValueIdx

noncomputable section

open Idealize.ShloMosaic Idealize.ShloMosaic.TcCoe Idealize.SL.Sem
open Idealize.ShloMosaic.ValueIdx
open scoped BigOperators

namespace Cert.KernelIdeal.Projection

open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of the [100000,256] features with the [256,256] weights, entry by entry: row of the features
    against column of the weights. -/
def rowsTimes (a0 : S100000x256.Idx → EReal) (a5 : S256x256.Idx → EReal) : S100000x256.Idx → EReal :=
  fun i => ∑ k : Fin 256, a0 (ix2 (⟨(i 0).val, (i 0).isLt⟩ : Fin 100000) k) * a5 (ix2 k (⟨(i 1).val, (i 1).isLt⟩ : Fin 256))

/-- Where the three windows' blocks sit at grid point `t`: the feature rows and the result rows at block row `t`,
    the weights always at their one block. -/
theorem block_places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t` is rows `4000 t … 4000 t + 3999` of the feature array. -/
theorem rows_block (c : Dev nD) (t : Fin cfg0.N) (p : Fin 4000) (k : Fin 256) (i : S100000x256.Idx)
    (h0 : (i 0).val = t.val * 4000 + p.val) (h1 : (i 1).val = k.val) :
    (iblk0 V c 0 t : Vec Ideal S4000x256 .f32) (ix2 p k) = (V c main_arg0 : S100000x256.Idx → EReal) i := by
  obtain ⟨e0, e1, -⟩ := block_places t
  unfold iblk0
  rw [View.read_apply]
  show V c main_arg0 _ = V c main_arg0 _
  refine congrArg (V c main_arg0) ?_
  funext a
  apply Fin.ext
  match a with
  | ⟨0, _⟩ => show win0_0.index t (0 : Fin 2) * 4000 + 1 * p.val = (i 0).val; rw [e0, h0]; omega
  | ⟨1, _⟩ => show win0_0.index t (1 : Fin 2) * 256 + 1 * k.val = (i 1).val; rw [e1, h1]; omega

/-- The weights' block at every point is the whole weight array. -/
theorem weights_block (c : Dev nD) (t : Fin cfg0.N) (k q : Fin 256) :
    (iblk0 V c 1 t : Vec Ideal S256x256 .f32) (ix2 k q) = (V c main_arg5 : S256x256.Idx → EReal) (ix2 k q) := by
  obtain ⟨-, -, e2, e3, -⟩ := block_places t
  unfold iblk0
  rw [View.read_apply]
  show V c main_arg5 _ = V c main_arg5 _
  refine congrArg (V c main_arg5) ?_
  funext a
  apply Fin.ext
  match a with
  | ⟨0, _⟩ => show win0_1.index t (0 : Fin 2) * 256 + 1 * k.val = k.val; rw [e2]; omega
  | ⟨1, _⟩ => show win0_1.index t (1 : Fin 2) * 256 + 1 * q.val = q.val; rw [e3]; omega

/-- What point `t` writes back is block `t` of the whole product. -/
theorem flushed_eq (c : Dev nD) (t : Fin cfg0.N) :
    (dat0 V c).flushed 2 t = ((cfg0.win 2).blk t).view.read (Elt Ideal) (rowsTimes (V c main_arg0) (V c main_arg5)) := by
  show (cfg0.win 2).cut (grid0.coords t) ((dat0 V c).after 2 t) = _
  rw [after0_2]
  unfold out0_2
  rw [View.canon_unit_zero hz]
  simp only [View.ld_unit_zero (S := S4000x256) hz, View.ld_unit_zero (S := S256x256) hz]
  obtain ⟨-, -, -, -, e4, e5⟩ := block_places t
  funext j
  obtain ⟨p, q, rfl⟩ : ∃ (p : Fin 4000) (q : Fin 256), j = ix2 p q := ⟨j 0, j 1, eq_ix2 j⟩
  refine (block_product _ _ p q).trans ?_
  rw [View.read_apply]
  unfold rowsTimes
  refine Finset.sum_congr rfl fun k _ => ?_
  have hr : ((((cfg0.win 2).blk t).view.emb (ix2 p q)) 0).val = t.val * 4000 + p.val := by
    show win0_2.index t (0 : Fin 2) * 4000 + 1 * p.val = _; rw [e4]; omega
  have hq : ((((cfg0.win 2).blk t).view.emb (ix2 p q)) 1).val = q.val := by
    show win0_2.index t (1 : Fin 2) * 256 + 1 * q.val = _; rw [e5]; omega
  refine congrArg₂ (· * ·) (rows_block V c t p k _ hr rfl) ((weights_block V c t k q).trans (congrArg (V c main_arg5) ?_))
  funext a
  match a with
  | ⟨0, _⟩ => rfl
  | ⟨1, _⟩ => exact Fin.ext hq.symm

/-- An index of the result array is in point `t`'s block iff each coordinate is in the block's range on its axis. -/
theorem mem_blk (t : Fin cfg0.N) (i : S100000x256.Idx) :
    i ∈ ((cfg0.win 2).blk t).view.set ↔ ∀ a : Fin 2, win0_2.index t a * S4000x256.size a ≤ (i a).val ∧ (i a).val < win0_2.index t a * S4000x256.size a + S4000x256.size a := by
  show i ∈ ((View.whole main_v0).slice (win0_2.rect t)).set ↔ _
  rw [View.set_slice_whole, Rect.mem_set_unit]
  exact Iff.rfl

/-- Row `r` of the result lies in the block of point `r / 4000`: the 25 blocks tile the array. -/
theorem cover (i : S100000x256.Idx) : ∃ t : Fin cfg0.N, (cfg0.win 2).flush t = true ∧ i ∈ ((cfg0.win 2).blk t).view.set := by
  have hi0 : (i 0).val < 100000 := (i 0).isLt
  have hi1 : (i 1).val < 256 := (i 1).isLt
  have hN : cfg0.N = 25 := N_0
  let t : Fin cfg0.N := ⟨(i 0).val / 4000, by rw [hN]; omega⟩
  have ht : t.val = (i 0).val / 4000 := rfl
  obtain ⟨-, -, -, -, e4, e5⟩ := block_places t
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; rw [e4, ht]; omega
  | ⟨1, _⟩ => show win0_2.index t (1 : Fin 2) * 256 ≤ (i 1).val ∧ (i 1).val < win0_2.index t (1 : Fin 2) * 256 + 256; rw [e5]; omega

/-- After the 25 points the result array of the first call holds the whole product of the arrays the call found. -/
theorem projection_array (c : Dev nD) :
    (dat0 V c).arrAt 2 cfg0.N = rowsTimes (V c main_arg0) (V c main_arg5) :=
  (dat0 V c).arrAt_eq_of_cover 2 (rowsTimes (V c main_arg0) (V c main_arg5)) (fun t _ => flushed_eq V c t) (cover)

end Cert.KernelIdeal.Projection

end
-- ==== Proof.LibScatterColumns.lean ====
/-
  A SCATTER-ADD OVER ROWS ACTS COLUMN BY COLUMN.

  The scatter here sends row `k` of a `K × C` array of updates onto the row of an `R × C` operand that the
  `k`-th scatter index names (read as a signed integer; an update whose row falls outside `[0, R)` is dropped), and
  adds it there: at the extended reals,

      result (r, c) = x (r, c) + ∑ over the rows k whose index is r, of U (k, c).

  Column `c` of the result depends on column `c` of the operand and column `c` of the updates only. So the
  scatter commutes with selecting a band of columns: the band `[o, o + C')` of the result is the scatter, by the same
  indices, of that band of the updates onto that band of the operand (`slice_scatter_band`). The proof reads both
  sides at one element and matches the two sums by the bijection "same row, column moved by `o`" between the update
  elements landing at `(r, c)` in the band and those landing at `(r, o + c)` in the whole array.

  When the updates are two arrays laid side by side, `[A | B]`, the left band of the updates is `A` and the right
  band is `B` (`slice_concat_left`, `slice_concat_right`), which gives the two statements at the end: the first 256
  columns of the scatter of `[A | B]` are the scatter of `A` onto the first 256 columns of the operand, and the last
  column is the scatter of `B` onto the last column of the operand (`slice_scatter_left`, `slice_scatter_right`).
-/
import Idealize.ShloMosaic.PureOps.Ideal
import Idealize.ShloMosaic.PureOps.Ideal.Laws
import Idealize.ShloMosaic.Lib.Pipeline.Value
import Idealize.ShloMosaic.Lib.ValueIdx

open scoped BigOperators
open Idealize.ShloMosaic Idealize.ShloMosaic.ValueIdx

namespace ScatterColumns

/-- The side conditions of a row scatter hold at every extent: one window axis (the columns, as wide as the
    operand's), one inserted axis (the rows), one scalar index per update row. -/
theorem rows_wf (R K C : Nat) :
    ScatterDims.WF (⟨2, ![R, C]⟩ : Shape) ⟨2, ![K, 1]⟩ ⟨2, ![K, C]⟩ [1] [0] [0] 1 := by
  refine ⟨List.pairwise_singleton _ _, List.pairwise_singleton _ _, List.nodup_singleton _, Nat.le_succ 1, rfl, ⟨rfl, ?_⟩, ⟨rfl, ?_⟩⟩
  · intro k
    match k with
    | ⟨0, _⟩ => rfl
  · intro k
    match k with
    | ⟨0, _⟩ => exact Nat.le_refl C

/-- The row scatter of `K` update rows of `C` columns onto an operand of `R` rows of `C` columns. -/
def rows (R K C : Nat) : ScatterDims (⟨2, ![R, C]⟩ : Shape) ⟨2, ![K, 1]⟩ ⟨2, ![K, C]⟩ where
  updateWindowDims := [1]
  insertedWindowDims := [0]
  scatterDimsToOperandDims := [0]
  indexVectorDim := 1
  wf := rows_wf R K C

variable {R K C : Nat}

/-- On the row axis the window starts at the scatter index of the update's row, read signed. -/
theorem rows_start_zero (j : (⟨2, ![K, C]⟩ : Shape).Idx) (idx : IVec (⟨2, ![K, 1]⟩ : Shape) 32) :
    (rows R K C).start j idx 0 = (idx (ix2 ⟨(j 0).val, idx2_lt0 j⟩ 0)).toInt := by
  have h : (0 : Fin (⟨2, ![R, C]⟩ : Shape).rank) ∈ (rows R K C).scatterDimsToOperandDims := by
    show (0 : Fin 2) ∈ [(0 : Fin 2)]; decide
  unfold ScatterDims.start
  rw [dif_pos h]
  congr 2
  funext b
  match b with
  | ⟨0, _⟩ => rfl
  | ⟨1, _⟩ => rfl

/-- On the column axis the window starts at zero. -/
theorem rows_start_one (j : (⟨2, ![K, C]⟩ : Shape).Idx) (idx : IVec (⟨2, ![K, 1]⟩ : Shape) 32) :
    (rows R K C).start j idx 1 = 0 := by
  have h : (1 : Fin (⟨2, ![R, C]⟩ : Shape).rank) ∉ (rows R K C).scatterDimsToOperandDims := by
    show (1 : Fin 2) ∉ [(0 : Fin 2)]; decide
  unfold ScatterDims.start
  rw [dif_neg h]

/-- The window has no extent along the rows. -/
theorem rows_window_zero (j : (⟨2, ![K, C]⟩ : Shape).Idx) :
    (rows R K C).window j 0 = 0 := by
  have h : (0 : Fin (⟨2, ![R, C]⟩ : Shape).rank) ∉ (rows R K C).sKept := by
    show (0 : Fin 2) ∉ (List.finRange 2).filter (· ∉ [(0 : Fin 2)]); decide
  unfold ScatterDims.window
  rw [dif_neg h]

/-- Along the columns the window coordinate is the update's column. -/
theorem rows_window_one (j : (⟨2, ![K, C]⟩ : Shape).Idx) :
    (rows R K C).window j 1 = (j 1).val := by
  have h : (1 : Fin (⟨2, ![R, C]⟩ : Shape).rank) ∈ (rows R K C).sKept := by
    show (1 : Fin 2) ∈ (List.finRange 2).filter (· ∉ [(0 : Fin 2)]); decide
  unfold ScatterDims.window
  rw [dif_pos h]
  rfl

/-- Where an update element lands: row read off the scatter indices (signed), same column. -/
theorem rows_resultIdx?_eq_some_iff (j : (⟨2, ![K, C]⟩ : Shape).Idx) (idx : IVec (⟨2, ![K, 1]⟩ : Shape) 32)
    (i : (⟨2, ![R, C]⟩ : Shape).Idx) :
    (rows R K C).resultIdx? j idx = some i ↔
      (idx (ix2 ⟨(j 0).val, idx2_lt0 j⟩ 0)).toInt = ((i 0).val : Int) ∧ (j 1).val = (i 1).val := by
  have hi0 := idx2_lt0 i
  have hi1 := idx2_lt1 i
  have hj1 := idx2_lt1 j
  unfold ScatterDims.resultIdx?
  constructor
  · intro h
    split at h
    · next hc =>
      have e := Option.some.inj h
      have e0 := congrArg Fin.val (congrFun e 0)
      have e1 := congrArg Fin.val (congrFun e 1)
      have c0 := hc 0
      have c1 := hc 1
      simp only [rows_start_zero, rows_start_one, rows_window_zero, rows_window_one] at e0 e1 c0 c1
      constructor
      · omega
      · omega
    · exact absurd h (by simp)
  · rintro ⟨h0, h1⟩
    have hc : ∀ a, 0 ≤ (rows R K C).start j idx a + (rows R K C).window j a ∧
        (rows R K C).start j idx a + (rows R K C).window j a < (⟨2, ![R, C]⟩ : Shape).size a := by
      intro a
      match a with
      | ⟨0, _⟩ =>
        show 0 ≤ (rows R K C).start j idx 0 + (rows R K C).window j 0 ∧
          (rows R K C).start j idx 0 + (rows R K C).window j 0 < (R : Int)
        rw [rows_start_zero, rows_window_zero]; omega
      | ⟨1, _⟩ =>
        show 0 ≤ (rows R K C).start j idx 1 + (rows R K C).window j 1 ∧
          (rows R K C).start j idx 1 + (rows R K C).window j 1 < (C : Int)
        rw [rows_start_one, rows_window_one]; omega
    rw [dif_pos hc]
    congr 1
    funext a
    apply Fin.ext
    match a with
    | ⟨0, _⟩ =>
      show ((rows R K C).start j idx 0 + (rows R K C).window j 0).toNat = (i 0).val
      rw [rows_start_zero, rows_window_zero]; omega
    | ⟨1, _⟩ =>
      show ((rows R K C).start j idx 1 + (rows R K C).window j 1).toNat = (i 1).val
      rw [rows_start_one, rows_window_one]; omega

/-- A band of `C'` columns starting at column `o` is a block of an array of `C` columns. -/
theorem band_slices (N C C' o : Nat) (h : o + C' ≤ C) :
    (⟨2, ![N, C]⟩ : Shape).Slices ![0, o] ⟨2, ![N, C']⟩ :=
  ⟨rfl, fun a => match a with
    | ⟨0, _⟩ => by show 0 + N ≤ N; omega
    | ⟨1, _⟩ => by show o + C' ≤ C; exact h⟩

/-- The band's index shifted into the whole array. -/
def shift {N C C' : Nat} (o : Nat) (h : o + C' ≤ C) (j : (⟨2, ![N, C']⟩ : Shape).Idx) : (⟨2, ![N, C]⟩ : Shape).Idx :=
  ix2 ⟨(j 0).val, idx2_lt0 j⟩ ⟨o + (j 1).val, by have := idx2_lt1 j; omega⟩

/-- A band read at an index is the whole array at the shifted index. -/
theorem slice_apply_shift {N C C' o : Nat} {α : Type} (h : o + C' ≤ C) (x : (⟨2, ![N, C]⟩ : Shape).Idx → α)
    (hs : (⟨2, ![N, C]⟩ : Shape).Slices ![0, o] ⟨2, ![N, C']⟩) (j : (⟨2, ![N, C']⟩ : Shape).Idx) :
    extractStridedSlice ⟨2, ![N, C']⟩ ![0, o] x hs j = x (shift o h j) :=
  extractStridedSlice_apply ![0, o] x hs j (shift o h j) fun a => match a with
    | ⟨0, _⟩ => by show (j 0).val = 0 + (j 0).val; omega
    | ⟨1, _⟩ => rfl

/-- A scatter-add over rows, read on a band of columns, is the scatter-add of the band of the updates onto the band
    of the operand. -/
theorem slice_scatter_band {R K C C' o : Nat} (x : (⟨2, ![R, C]⟩ : Shape).Idx → EReal)
    (idx : IVec (⟨2, ![K, 1]⟩ : Shape) 32) (U : (⟨2, ![K, C]⟩ : Shape).Idx → EReal)
    (hs : (⟨2, ![R, C]⟩ : Shape).Slices ![0, o] ⟨2, ![R, C']⟩)
    (hu : (⟨2, ![K, C]⟩ : Shape).Slices ![0, o] ⟨2, ![K, C']⟩) :
    extractStridedSlice ⟨2, ![R, C']⟩ ![0, o] (Ideal.hostScatterAdd (rows R K C) x idx U) hs
      = Ideal.hostScatterAdd (rows R K C') (extractStridedSlice ⟨2, ![R, C']⟩ ![0, o] x hs) idx
          (extractStridedSlice ⟨2, ![K, C']⟩ ![0, o] U hu) := by
  have hoC : o + C' ≤ C := hs.2 1
  funext i
  have hi1 := idx2_lt1 i
  rw [slice_apply_shift hoC _ hs i]
  unfold Ideal.hostScatterAdd
  rw [slice_apply_shift hoC x hs i]
  congr 1
  symm
  refine Finset.sum_bij (fun j' _ => shift o hoC j') ?_ ?_ ?_ ?_
  · intro j' hj'
    simp only [Finset.mem_filter, Finset.mem_univ, true_and] at hj' ⊢
    rw [rows_resultIdx?_eq_some_iff] at hj' ⊢
    exact ⟨hj'.1, by show o + (j' 1).val = o + (i 1).val; rw [hj'.2]⟩
  · intro a _ b _ hab
    have h0 : (a 0).val = (b 0).val := congrArg Fin.val (congrFun hab 0)
    have h1 : o + (a 1).val = o + (b 1).val := congrArg Fin.val (congrFun hab 1)
    funext c
    match c with
    | ⟨0, _⟩ => exact Fin.ext h0
    | ⟨1, _⟩ => exact Fin.ext (show (a 1).val = (b 1).val by omega)
  · intro j hj
    simp only [Finset.mem_filter, Finset.mem_univ, true_and] at hj
    rw [rows_resultIdx?_eq_some_iff] at hj
    have hj2 : (j 1).val = o + (i 1).val := hj.2
    refine ⟨ix2 ⟨(j 0).val, idx2_lt0 j⟩ ⟨(i 1).val, hi1⟩, ?_, ?_⟩
    · simp only [Finset.mem_filter, Finset.mem_univ, true_and]
      rw [rows_resultIdx?_eq_some_iff]
      exact ⟨hj.1, rfl⟩
    · funext c
      match c with
      | ⟨0, _⟩ => rfl
      | ⟨1, _⟩ => exact Fin.ext hj2.symm
  · intro j' _
    exact slice_apply_shift hoC U hu j'

/-- The first `C₁` columns of two arrays laid side by side are the first array. -/
theorem slice_concat_left {N C₁ C₂ C : Nat} {α : Type} (A : (⟨2, ![N, C₁]⟩ : Shape).Idx → α)
    (B : (⟨2, ![N, C₂]⟩ : Shape).Idx → α)
    (hc : Shape.Concatenates [(⟨2, ![N, C₁]⟩ : Shape), ⟨2, ![N, C₂]⟩] ⟨2, ![N, C]⟩ 1)
    (hu : (⟨2, ![N, C]⟩ : Shape).Slices ![0, 0] ⟨2, ![N, C₁]⟩) :
    extractStridedSlice ⟨2, ![N, C₁]⟩ ![0, 0] (concatenate ⟨2, ![N, C]⟩ 1 [⟨⟨2, ![N, C₁]⟩, A⟩, ⟨⟨2, ![N, C₂]⟩, B⟩] hc) hu = A := by
  have h : 0 + C₁ ≤ C := hu.2 1
  funext j
  rw [slice_apply_shift h _ hu j]
  exact concatenate_pair_apply_left 1 A B hc (shift 0 h j) rfl j fun b => match b with
    | ⟨0, _⟩ => rfl
    | ⟨1, _⟩ => by show (j 1).val = 0 + (j 1).val; omega

/-- The columns from `C₁` on of two arrays laid side by side are the second array. -/
theorem slice_concat_right {N C₁ C₂ C : Nat} {α : Type} (A : (⟨2, ![N, C₁]⟩ : Shape).Idx → α)
    (B : (⟨2, ![N, C₂]⟩ : Shape).Idx → α)
    (hc : Shape.Concatenates [(⟨2, ![N, C₁]⟩ : Shape), ⟨2, ![N, C₂]⟩] ⟨2, ![N, C]⟩ 1)
    (hu : (⟨2, ![N, C]⟩ : Shape).Slices ![0, C₁] ⟨2, ![N, C₂]⟩) :
    extractStridedSlice ⟨2, ![N, C₂]⟩ ![0, C₁] (concatenate ⟨2, ![N, C]⟩ 1 [⟨⟨2, ![N, C₁]⟩, A⟩, ⟨⟨2, ![N, C₂]⟩, B⟩] hc) hu = B := by
  have h : C₁ + C₂ ≤ C := hu.2 1
  funext j
  rw [slice_apply_shift h _ hu j]
  refine concatenate_pair_apply_right 1 A B hc (shift C₁ h j) rfl rfl j (fun b hb => ?_) ?_
  · match b with
    | ⟨0, _⟩ => rfl
    | ⟨1, _⟩ => exact absurd rfl hb
  · show (j 1).val + C₁ = C₁ + (j 1).val
    omega

/-! ## The three scatters of the statement -/

abbrev S25000x257 : Shape := ⟨2, ![25000, 257]⟩
abbrev S25000x256 : Shape := ⟨2, ![25000, 256]⟩
abbrev S25000x1 : Shape := ⟨2, ![25000, 1]⟩
abbrev S800000x257 : Shape := ⟨2, ![800000, 257]⟩
abbrev S800000x256 : Shape := ⟨2, ![800000, 256]⟩
abbrev S800000x1 : Shape := ⟨2, ![800000, 1]⟩

def sc257 : ScatterDims S25000x257 S800000x1 S800000x257 where
  updateWindowDims := [1]
  insertedWindowDims := [0]
  scatterDimsToOperandDims := [0]
  indexVectorDim := 1
  wf := rows_wf 25000 800000 257

def sc256 : ScatterDims S25000x256 S800000x1 S800000x256 where
  updateWindowDims := [1]
  insertedWindowDims := [0]
  scatterDimsToOperandDims := [0]
  indexVectorDim := 1
  wf := rows_wf 25000 800000 256

def sc1 : ScatterDims S25000x1 S800000x1 S800000x1 where
  updateWindowDims := [1]
  insertedWindowDims := [0]
  scatterDimsToOperandDims := [0]
  indexVectorDim := 1
  wf := rows_wf 25000 800000 1

/-- The first 256 columns of the scatter of `[A | B]` are the scatter of `A`. -/
theorem slice_scatter_left (x : FVec Ideal S25000x257 .f32) (idx : IVec S800000x1 32)
    (A : FVec Ideal S800000x256 .f32) (B : FVec Ideal S800000x1 .f32)
    (hs : S25000x257.Slices ![0, 0] S25000x256)
    (hc : Shape.Concatenates [S800000x256, S800000x1] S800000x257 1) :
    extractStridedSlice S25000x256 ![0, 0]
        (Host.scatterAdd (F := Ideal) sc257 x idx
          (concatenate S800000x257 1 [⟨S800000x256, A⟩, ⟨S800000x1, B⟩] hc)) hs
      = Host.scatterAdd (F := Ideal) sc256 (extractStridedSlice S25000x256 ![0, 0] x hs) idx A := by
  have hu : S800000x257.Slices ![0, 0] S800000x256 := band_slices 800000 257 256 0 (by omega)
  have h := slice_scatter_band (R := 25000) (K := 800000) (C := 257) (C' := 256) (o := 0) x idx
    (concatenate S800000x257 1 [⟨S800000x256, A⟩, ⟨S800000x1, B⟩] hc) hs hu
  rw [slice_concat_left A B hc hu] at h
  exact h

/-- The last column of the scatter of `[A | B]` is the scatter of `B`. -/
theorem slice_scatter_right (x : FVec Ideal S25000x257 .f32) (idx : IVec S800000x1 32)
    (A : FVec Ideal S800000x256 .f32) (B : FVec Ideal S800000x1 .f32)
    (hs' : S25000x257.Slices ![0, 256] S25000x1)
    (hc : Shape.Concatenates [S800000x256, S800000x1] S800000x257 1) :
    extractStridedSlice S25000x1 ![0, 256]
        (Host.scatterAdd (F := Ideal) sc257 x idx
          (concatenate S800000x257 1 [⟨S800000x256, A⟩, ⟨S800000x1, B⟩] hc)) hs'
      = Host.scatterAdd (F := Ideal) sc1 (extractStridedSlice S25000x1 ![0, 256] x hs') idx B := by
  have hu : S800000x257.Slices ![0, 256] S800000x1 := band_slices 800000 257 1 256 (by omega)
  have h := slice_scatter_band (R := 25000) (K := 800000) (C := 257) (C' := 1) (o := 256) x idx
    (concatenate S800000x257 1 [⟨S800000x256, A⟩, ⟨S800000x1, B⟩] hc) hs' hu
  rw [slice_concat_right A B hc hu] at h
  exact h

end ScatterColumns
-- ==== Proof.Bridge.lean ====
/- The two programs compute one function of the arguments: the projection, the edge stage and the node stage compared. -/
import proofs.«146544_j18296560681438_2_alg».proof.Proof.BetweenCalls
import proofs.«146544_j18296560681438_2_alg».proof.Proof.ProjectionArray
import proofs.«146544_j18296560681438_2_alg».proof.Proof.NodeScaleArray
import proofs.«146544_j18296560681438_2_alg».proof.Proof.LibScatterColumns
import proofs.«146544_j18296560681438_2_alg».proof.Proof.Gen.ReferenceIdeal.Read

noncomputable section

open Idealize.ShloMosaic Idealize.ShloMosaic.TcCoe Idealize.SL.Sem
open Idealize.ShloMosaic.ValueIdx
open scoped BigOperators

namespace Cert.Bridge

open Cert.KernelIdeal Cert.KernelIdeal.Whole Cert.KernelIdeal.Facts₀

/-! ## The projection: the blockwise product is the reference's contraction -/

/-- The row-by-column sums are the reference's matrix product, entry by entry. -/
theorem product_eq (x0 : S100000x256.Idx → EReal) (x5 : S256x256.Idx → EReal) :
    Projection.rowsTimes x0 x5 = Cert.ReferenceIdeal.Read.val_main_v0 (F := Ideal) x0 x5 := by
  funext i
  rw [Cert.ReferenceIdeal.Read.val_main_v0_apply]
  unfold Projection.rowsTimes
  refine Finset.sum_congr rfl fun k _ => ?_
  refine congrArg₂ (· * ·) (congrArg x0 ?_) (congrArg x5 ?_)
  · funext a; match a with | ⟨0, _⟩ => rfl | ⟨1, _⟩ => rfl
  · funext a; match a with | ⟨0, _⟩ => rfl | ⟨1, _⟩ => rfl

/-! ## The edge stage: one accumulation of [rows | ones] against two accumulations

The program accumulates, per edge, the incidence rows with a column of ones appended, and then cuts the result into
its first 256 columns (the sums) and its last column (the counts). A row scatter with addition acts column by column, so
the two cuts are the two separate accumulations the reference makes. -/

/-- The first 256 columns are the reference's per-edge sums of incidence rows. -/
theorem edge_sums (x0 : S100000x256.Idx → EReal) (x1 x2 : (⟨S800000, .i32⟩ : BufTy).Contents (Elt Ideal)) (x5 : S256x256.Idx → EReal) :
    extractStridedSlice S25000x256 ![0, 0] (edgeSumsAndCounts (F := Ideal) (Cert.ReferenceIdeal.Read.val_main_v0 (F := Ideal) x0 x5) x1 x2) slices_S25000x257_S25000x256_0_0
      = Cert.ReferenceIdeal.Read.val_main_v10 (F := Ideal) x0 x1 x2 x5 :=
  (ScatterColumns.slice_scatter_left _ _ _ _ slices_S25000x257_S25000x256_0_0 concatenates_S800000x256_S800000x1_S800000x257_d1).trans rfl

/-- The last column is the reference's per-edge count of incidences. -/
theorem edge_counts (x0 : S100000x256.Idx → EReal) (x1 x2 : (⟨S800000, .i32⟩ : BufTy).Contents (Elt Ideal)) (x5 : S256x256.Idx → EReal) :
    extractStridedSlice S25000x1 ![0, 256] (edgeSumsAndCounts (F := Ideal) (Cert.ReferenceIdeal.Read.val_main_v0 (F := Ideal) x0 x5) x1 x2) slices_S25000x257_S25000x1_0_256
      = Cert.ReferenceIdeal.Read.val_main_v14 (F := Ideal) x2 :=
  (ScatterColumns.slice_scatter_right _ _ _ _ slices_S25000x257_S25000x1_0_256 concatenates_S800000x256_S800000x1_S800000x257_d1).trans rfl

/-- So the node sums the second call reads are the reference's. -/
theorem node_sums_eq (x0 : S100000x256.Idx → EReal) (x1 x2 : (⟨S800000, .i32⟩ : BufTy).Contents (Elt Ideal))
    (x4 : S25000x1.Idx → EReal) (x5 : S256x256.Idx → EReal) :
    nodeSums (F := Ideal) (Cert.ReferenceIdeal.Read.val_main_v0 (F := Ideal) x0 x5) x1 x2 x4 = Cert.ReferenceIdeal.Read.val_main_v30 (F := Ideal) x0 x1 x2 x4 x5 := by
  unfold nodeSums edgeFeatures
  rw [edge_sums, edge_counts]
  rfl

/-! ## The whole result -/

/-- The bias laid out as one row, read at column `q`, is the bias at `q`. -/
theorem bias_row (x6 : S256.Idx → EReal) (q : Fin 256) :
    shapeCast S1x256 x6 shapeCasts_S256_S1x256 (ix2 (0 : Fin 1) q) = x6 (ix1 q) := by
  refine shapeCast_apply x6 shapeCasts_S256_S1x256 (ix2 (0 : Fin 1) q) (ix1 q) ?_
  rw [Shape.rowMajor_val_one, Shape.rowMajor_val_two]
  show q.val = 0 * 256 + q.val
  omega

/-- The program's result is the reference's, as one function of the seven argument arrays. -/
theorem result_eq (x0 : S100000x256.Idx → EReal) (x1 x2 : (⟨S800000, .i32⟩ : BufTy).Contents (Elt Ideal)) (x3 : S100000x1.Idx → EReal)
    (x4 : S25000x1.Idx → EReal) (x5 : S256x256.Idx → EReal) (x6 : S256.Idx → EReal) :
    NodeScale.rowScaleBias (F := Ideal) (nodeSums (F := Ideal) (Projection.rowsTimes x0 x5) x1 x2 x4) x3 (shapeCast S1x256 x6 shapeCasts_S256_S1x256)
      = Cert.ReferenceIdeal.Read.val_main_v35 (F := Ideal) x0 x1 x2 x3 x4 x5 x6 := by
  rw [product_eq, node_sums_eq]
  funext i
  rw [Cert.ReferenceIdeal.Read.val_main_v35_apply, Cert.ReferenceIdeal.Read.val_main_v32_apply, Cert.ReferenceIdeal.Read.val_main_v31_apply, Cert.ReferenceIdeal.Read.val_main_v34_apply, Cert.ReferenceIdeal.Read.val_main_v33_apply]
  unfold NodeScale.rowScaleBias
  refine congrArg₂ FloatOps.addf (congrArg₂ FloatOps.mulf rfl (congrArg x3 ?_)) ((bias_row x6 _).trans (congrArg x6 ?_))
  · funext a; match a with | ⟨0, _⟩ => rfl | ⟨1, _⟩ => rfl
  · funext a; match a with | ⟨0, _⟩ => rfl

end Cert.Bridge

end
-- ==== Proof.lean ====
/- The certificate of the hypergraph layer: a dense projection, a node→edge mean over the incidence lists, an edge→node
   sum, a per-node scale and a bias — computed by two tiled calls with host gathers and scatters between them, against the
   plain array program.

   At the extended reals the two programs are one function of the seven arguments:
   * the first call multiplies 4000 rows of the features at a time by the whole weight matrix, into a zero accumulator,
     after a change of float format that is the identity here; the 25 row blocks tile the result, whose entry (r, c) is the
     sum over k of feature (r, k) times weight (k, c) — the reference's contraction (`Cert.Bridge.product_eq`);
   * between the calls the program gathers one projected row per incidence, appends a column of ones, accumulates the 257
     columns per edge in ONE row scatter and cuts the result into sums (columns 0 … 255) and counts (column 256), where
     the reference runs two scatters; a row scatter with addition acts column by column, so the cuts are the reference's two
     accumulations (`ScatterColumns`, `Cert.Bridge.edge_sums`, `Cert.Bridge.edge_counts`); the mean, the edge scale, the second
     gather and the node scatter are then the same operations on equal operands;
   * the second call computes, 2000 rows at a time, row · degree + bias with the degree column and the bias row broadcast,
     the reference the same with the broadcasts written out (`Cert.Bridge.result_eq`).
   No law used needs the inputs finite: only reindexings of sums and definitional readings of layout operations.
   The idealization rewrote nothing, so `preserves` has no conjunct. -/
import proofs.«146544_j18296560681438_2_alg».proof.Defs
import proofs.«146544_j18296560681438_2_alg».proof.Proof.Gen.Kernel
import proofs.«146544_j18296560681438_2_alg».proof.Proof.Gen.Kernel.Skeleton
import proofs.«146544_j18296560681438_2_alg».proof.Proof.Gen.Kernel.Launch
import proofs.«146544_j18296560681438_2_alg».proof.Proof.Gen.Kernel.Points
import proofs.«146544_j18296560681438_2_alg».proof.Proof.Gen.Kernel.Frame
import proofs.«146544_j18296560681438_2_alg».proof.Proof.Gen.KernelIdeal
import proofs.«146544_j18296560681438_2_alg».proof.Proof.Gen.KernelIdeal.Skeleton
import proofs.«146544_j18296560681438_2_alg».proof.Proof.Gen.KernelIdeal.Launch
import proofs.«146544_j18296560681438_2_alg».proof.Proof.Gen.KernelIdeal.Points
import proofs.«146544_j18296560681438_2_alg».proof.Proof.Gen.KernelIdeal.Frame
import proofs.«146544_j18296560681438_2_alg».proof.Proof.Gen.ReferenceIdeal
import proofs.«146544_j18296560681438_2_alg».proof.Proof.Gen.Pre_finite_inputs
import proofs.«146544_j18296560681438_2_alg».proof.Proof.Gen.ReferenceIdeal.Run
import proofs.«146544_j18296560681438_2_alg».proof.Proof.Gen.ReferenceIdeal.Read
import proofs.«146544_j18296560681438_2_alg».proof.Proof.KernelValue
import proofs.«146544_j18296560681438_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_ideal : Cert.frame_KernelIdeal := fun m ρ _ => Cert.KernelIdeal.Gen.frame m ρ
/-- The reference has no call: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The first call's result array, at the boundary after it, is the whole product of the launch memory's features and
    weights. -/
theorem projected (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W1 m ρ c (Proc.devRef .tc Cert.KernelIdeal.main_v0)
      = Cert.KernelIdeal.Projection.rowsTimes (m ((c.tc : Thread Cert.KernelIdeal.nD Cert.KernelIdeal.τ).loc Cert.KernelIdeal.main_arg0))
          (m ((c.tc : Thread Cert.KernelIdeal.nD Cert.KernelIdeal.τ).loc Cert.KernelIdeal.main_arg5)) :=
  (Cert.KernelIdeal.Gen.W1_arr m ρ c 2).trans (Cert.KernelIdeal.Projection.projection_array (Cert.KernelIdeal.Gen.V0 m ρ) c)

/-- Both programs run, from memories agreeing on the arguments, to the same result: the program's value read off its run,
    the reference's off its own, and the two terms one function of the arguments. -/
theorem algebraic : Cert.algebraic_KernelIdeal_ReferenceIdeal := by
  intro m ρ m' ρ' _ hagree
  refine ⟨fun c => Cert.KernelIdeal.Whole.resultOf m (Cert.KernelIdeal.Gen.W1 m ρ c (Proc.devRef .tc Cert.KernelIdeal.main_v0)) c,
    Cert.KernelIdeal.Whole.run_result m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v35_eq _ _ _ _ _ _ _).trans ?_
  rw [(hagree c).1, (hagree c).2.1, (hagree c).2.2.1, (hagree c).2.2.2.1, (hagree c).2.2.2.2.1, (hagree c).2.2.2.2.2.1,
    (hagree c).2.2.2.2.2.2, ← Cert.Bridge.result_eq]
  exact (congrArg (fun X => Cert.KernelIdeal.Whole.resultOf m X c) (projected m ρ c)).symm

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
